-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S4096x1024 : Shape := ⟨2, ![4096, 1024]⟩
abbrev S4x1024x1024 : Shape := ⟨3, ![4, 1024, 1024]⟩
abbrev S4x1024 : Shape := ⟨2, ![4, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 19
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S1024x4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S1024x4096, .bf16⟩
  | .hbm, ⟨16, _⟩ => ⟨S1024x4096, .bf16⟩
  | .hbm, ⟨17, _⟩ => ⟨S4096x1024, .f32⟩
  | .hbm, ⟨18, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x4096, .bf16⟩
  | .local _ .vmem, ⟨5, _⟩ => ⟨S1024x4096, .bf16⟩
  | .local _ .vmem, ⟨6, _⟩ => ⟨S1x4096, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x1024x1024_S4096x1024 : S4x1024x1024.ShapeCasts S4096x1024
  transposes_S4096x1024_S1024x4096_1_0 : S4096x1024.Transposes [1, 0] S1024x4096
  shapeCasts_S4x1024_S4096 : S4x1024.ShapeCasts S4096
  shapeCasts_S4096_S1x4096 : S4096.ShapeCasts S1x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4x1024x1024 : Shape := ⟨3, ![4, 1024, 1024]⟩
abbrev S4x1024 : Shape := ⟨2, ![4, 1024]⟩
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S4096x4x1024 : Shape := ⟨3, ![4096, 4, 1024]⟩
abbrev S4096x1x1024 : Shape := ⟨3, ![4096, 1, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S1024x4096, .f32⟩
  | .hbm, ⟨9, _⟩ => ⟨S4096x4096, .f32⟩
  | .hbm, ⟨10, _⟩ => ⟨S4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S1024x4096, .f32⟩
  | .hbm, ⟨16, _⟩ => ⟨S4096x4096, .f32⟩
  | .hbm, ⟨17, _⟩ => ⟨S4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]

class Facts₀ : Prop where
  shapeCasts_S4x1024x1024_S4096x1024 : S4x1024x1024.ShapeCasts S4096x1024
  transposes_S4096x1024_S1024x4096_1_0 : S4096x1024.Transposes [1, 0] S1024x4096
  shapeCasts_S4x1024_S4096 : S4x1024.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x4x1024 : S4096x4096.ShapeCasts S4096x4x1024
  slices_S4096x4x1024_S4096x1x1024_0_0_0 : S4096x4x1024.Slices ![0, 0, 0] S4096x1x1024
  shapeCasts_S4096x1x1024_S4096x1024 : S4096x1x1024.ShapeCasts S4096x1024
  bcast_S_S4096x1024 : S_.BroadcastsInDim S4096x1024 (![] : Fin 0 → Fin S4096x1024.rank)
  slices_S4096x4x1024_S4096x1x1024_0_1_0 : S4096x4x1024.Slices ![0, 1, 0] S4096x1x1024
  slices_S4096x4x1024_S4096x1x1024_0_2_0 : S4096x4x1024.Slices ![0, 2, 0] S4096x1x1024
  slices_S4096x4x1024_S4096x1x1024_0_3_0 : S4096x4x1024.Slices ![0, 3, 0] S4096x1x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.CellSpec.lean ====
/-
  The LSTM cell this certificate is about, as functions of the seven argument arrays on the extended reals.

  Inputs: x, h, c of shape [4096, 1024] (one row per batch element), the input and hidden weights Wx, Wh of shape
  [4, 1024, 1024] (one [1024, 1024] matrix per gate, in the order i, f, g, o), and the biases bx, bh of shape [4, 1024].

  The four gates' matrices stacked on top of each other form one [4096, 1024] matrix whose row n is row n mod 1024 of
  gate n div 1024 (`stackedW`); likewise the stacked bias has entry n at (n div 1024, n mod 1024) (`stackedB`). The
  pre-activation of stacked column n for batch row r is

      pre r n = (sum_k x(r,k) * Wx[n](k) + sum_k h(r,k) * Wh[n](k)) + (bx[n] + bh[n]),

  the new cell state is  c'(r,j) = sigma(pre r (1024+j)) * c(r,j) + sigma(pre r j) * tanh(pre r (2048+j)),
  and the new hidden state is  h'(r,j) = sigma(pre r (3072+j)) * tanh(c'(r,j)),  sigma the logistic function.

  `pre_regroup` is the one algebraic law between two ways of adding the biases: (A + B) + (b + b') = (A + b) + (B + b').
  It holds in every commutative additive monoid, so on the extended reals nothing has to be finite.

  The last section reads the two reshapes that turn the per-gate arrays into the stacked ones at an entry.
-/
import Idealize.ShloMosaic.PureOps.Ideal
import Idealize.ShloMosaic.PureOps.IdealRules
import Idealize.ShloMosaic.Lib.ValueIdx
import Idealize.ShloMosaic.Lib.Pipeline.Value

noncomputable section

namespace LstmCell

open Idealize.ShloMosaic Idealize.ShloMosaic.ValueIdx

/-- The shape of x, h, c and of both results: batch rows by hidden units. -/
abbrev Rows : Shape := ⟨2, ![4096, 1024]⟩
/-- The shape of Wx and Wh: gate, output unit, input unit. -/
abbrev Weights : Shape := ⟨3, ![4, 1024, 1024]⟩
/-- The shape of bx and bh: gate, output unit. -/
abbrev Biases : Shape := ⟨2, ![4, 1024]⟩

/-- Row `n` of the four gates' matrices stacked, at input unit `k`: gate `n / 1024`, output unit `n % 1024`. -/
def stackedW (n : Fin 4096) (k : Fin 1024) : Weights.Idx :=
  ix3 (⟨n.val / 1024, by have := n.isLt; omega⟩ : Fin 4) (⟨n.val % 1024, by omega⟩ : Fin 1024) k

/-- Entry `n` of the four gates' biases stacked: gate `n / 1024`, output unit `n % 1024`. -/
def stackedB (n : Fin 4096) : Biases.Idx :=
  ix2 (⟨n.val / 1024, by have := n.isLt; omega⟩ : Fin 4) (⟨n.val % 1024, by omega⟩ : Fin 1024)

/-- Stacked column of hidden unit `j` in the gate that starts at column `off` (0, 1024, 2048 or 3072). -/
def gateCol (off : Nat) (hoff : off + 1024 ≤ 4096) (j : Fin 1024) : Fin 4096 := ⟨j.val + off, by have := j.isLt; omega⟩

/-- One cell update from the forget, input and candidate pre-activations and the old state:
    sigma(f) * c + sigma(i) * tanh(g). -/
def cellOf (f i g c : EReal) : EReal := Ideal.logistic f * c + Ideal.logistic i * Ideal.tanh g

/-- One hidden update from the output pre-activation and the new cell state: sigma(o) * tanh(c'). -/
def hiddenOf (o c' : EReal) : EReal := Ideal.logistic o * Ideal.tanh c'

section
variable (x h : Rows.Idx → EReal) (Wx Wh : Weights.Idx → EReal) (bx bh : Biases.Idx → EReal)

/-- The pre-activation of stacked column `n` for batch row `r`: both products, then the two biases added together. -/
def pre (r : Fin 4096) (n : Fin 4096) : EReal :=
  ((∑ k : Fin 1024, x (ix2 r k) * Wx (stackedW n k)) + ∑ k : Fin 1024, h (ix2 r k) * Wh (stackedW n k))
    + (bx (stackedB n) + bh (stackedB n))

/-- The same number with each bias added to its own product first. -/
theorem pre_regroup (r : Fin 4096) (n : Fin 4096) :
    ((∑ k : Fin 1024, x (ix2 r k) * Wx (stackedW n k)) + bx (stackedB n))
      + ((∑ k : Fin 1024, h (ix2 r k) * Wh (stackedW n k)) + bh (stackedB n)) = pre x h Wx Wh bx bh r n :=
  add_add_add_comm _ _ _ _

variable (c : Rows.Idx → EReal)

/-- The new cell state at batch row `r`, hidden unit `j`: forget gate times old state plus input gate times candidate. -/
def cellAt (r : Fin 4096) (j : Fin 1024) : EReal :=
  cellOf (pre x h Wx Wh bx bh r (gateCol 1024 (by norm_num) j)) (pre x h Wx Wh bx bh r (gateCol 0 (by norm_num) j))
    (pre x h Wx Wh bx bh r (gateCol 2048 (by norm_num) j)) (c (ix2 r j))

/-- The new hidden state at batch row `r`, hidden unit `j`: output gate times tanh of the new cell state. -/
def hiddenAt (r : Fin 4096) (j : Fin 1024) : EReal :=
  hiddenOf (pre x h Wx Wh bx bh r (gateCol 3072 (by norm_num) j)) (cellAt x h Wx Wh bx bh c r j)

/-- The new cell state as an array. -/
def cell : Rows.Idx → EReal := fun i => cellAt x h Wx Wh bx bh c (i 0) (i 1)

/-- The new hidden state as an array. -/
def hidden : Rows.Idx → EReal := fun i => hiddenAt x h Wx Wh bx bh c (i 0) (i 1)

end

/-! ## The stacking reshapes read at an entry -/

/-- A [4, 1024, 1024] array reshaped to [4096, 1024] reads, at (n, k), the operand at gate n / 1024, unit n % 1024, k. -/
theorem stackW_apply {α : Type} (X : Weights.Idx → α) (hc : Weights.ShapeCasts ⟨2, ![4096, 1024]⟩) (n : Fin 4096) (k : Fin 1024) :
    shapeCast ⟨2, ![4096, 1024]⟩ X hc (ix2 n k) = X (stackedW n k) :=
  shapeCast_apply X hc _ _ (by
    rw [Shape.rowMajor_val_three, Shape.rowMajor_val_two]
    have hn := n.isLt
    have hk := k.isLt
    show (n.val / 1024 * 1024 + n.val % 1024) * 1024 + k.val = n.val * 1024 + k.val
    omega)

/-- A [4, 1024] array reshaped to [4096] reads, at n, the operand at gate n / 1024, unit n % 1024. -/
theorem stackB_apply {α : Type} (X : Biases.Idx → α) (hc : Biases.ShapeCasts ⟨1, ![4096]⟩) (n : Fin 4096) :
    shapeCast ⟨1, ![4096]⟩ X hc (ix1 n) = X (stackedB n) :=
  shapeCast_apply X hc _ _ (by
    rw [Shape.rowMajor_val_two, Shape.rowMajor_val_one]
    show n.val / 1024 * 1024 + n.val % 1024 = n.val
    omega)

/-- The f32 pattern of 1.0 is the number one. -/
theorem one_f32 : Ideal.ofBits .f32 0x3F800000#32 = 1 := IdealRules.sign_bit.ideal_onePat .f32

end LstmCell

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.GateBlock.lean ====
/-
  The kernel body's gate block at an entry, on the extended reals.

  At one grid point the body holds 256 rows of x and of h, the two whole weight operands W, W' of shape [1024, 4096]
  (input unit by stacked gate column) and the bias row b of shape [1, 4096]. It forms the [256, 4096] block

      g = (x_block . W + h_block . W') + b        (b added to every row),

  the four gates side by side. Here that block is read at an entry (p, n): the casts to the narrower float format are
  the identity on the extended reals, each product into the zero accumulator is a plain sum of 1024 products, and the
  row broadcast reads the bias row at column n. Nothing is assumed finite.
-/
import proofs.«125485_j48481590837364_2_alg».proof.Proof.Gen.KernelIdeal.Skeleton
import proofs.«125485_j48481590837364_2_alg».proof.Proof.LibPlainDot
import Idealize.ShloMosaic.Lib.ValueLayout

noncomputable section

namespace Cert.KernelIdeal.GateBlock

open Cert.KernelIdeal Cert.KernelIdeal.Gen Idealize.ShloMosaic Idealize.ShloMosaic.ValueIdx

/-- The printed dimension numbers are those of rows-by-contraction times contraction-by-columns. -/
theorem dims_plain : dot_S256x1024_S1024x4096_S256x4096_1_0_0_1_n_n = DotDims.plain 256 1024 4096 := rfl

/-- One product of the body, a 256-row block times a whole weight operand into the zero accumulator, at (p, n):
    the sum over the 1024 input units of block entry (p, k) times weight entry (k, n). -/
theorem product_apply (A : FVec Ideal S256x1024 .f32) (W : FVec Ideal S1024x4096 .bf16) (p : Fin 256) (n : Fin 4096) :
    matmul (F := Ideal) dot_S256x1024_S1024x4096_S256x4096_1_0_0_1_n_n none (truncf (F := Ideal) .bf16 A bitsLt_bf16_f32)
        (shapeCast S1024x4096 W shapeCasts_S1024x4096_S1024x4096) (constant (F := Ideal) S256x4096 .f32 0x00000000#32) (ix2 p n)
      = ∑ k : Fin 1024, (A (ix2 p k) : EReal) * W (ix2 k n) := by
  rw [shapeCast_self, dims_plain]
  exact PlainDot.matmul_zero_apply 256 1024 4096 none (truncf (F := Ideal) .bf16 A bitsLt_bf16_f32) W (ix2 p n)

/-- The bias row broadcast over the 256 rows, at (p, n): the row's entry n. -/
theorem biasRow_apply (B : FVec Ideal S1x4096 .f32) (p : Fin 256) (n : Fin 4096) :
    broadcastTo S256x4096 (shapeCast S1x4096 B shapeCasts_S1x4096_S1x4096) broadcasts_S1x4096_S256x4096 (ix2 p n)
      = B (ix2 (0 : Fin 1) n) := by
  rw [shapeCast_self]
  exact broadcastTo_1b_ab_apply B broadcasts_S1x4096_S256x4096 p n

/-- The gate pre-activation of block row `p` and stacked column `n`, from the point's operands: both sums of
    products, then the bias row's entry. -/
def blockPre (A A' : FVec Ideal S256x1024 .f32) (W W' : FVec Ideal S1024x4096 .bf16) (B : FVec Ideal S1x4096 .f32)
    (p : Fin 256) (n : Fin 4096) : EReal :=
  ((∑ k : Fin 1024, (A (ix2 p k) : EReal) * W (ix2 k n)) + ∑ k : Fin 1024, (A' (ix2 p k) : EReal) * W' (ix2 k n))
    + B (ix2 (0 : Fin 1) n)

/-- THE GATE BLOCK AT AN ENTRY is that pre-activation. -/
theorem gates_apply (A A' : FVec Ideal S256x1024 .f32) (W W' : FVec Ideal S1024x4096 .bf16) (B : FVec Ideal S1x4096 .f32)
    (p : Fin 256) (n : Fin 4096) :
    k0_pay1 (F := Ideal) A A' W W' B (ix2 p n) = blockPre A A' W W' B p n := by
  unfold k0_pay1 blockPre
  exact congrArg₂ (· + ·) (congrArg₂ (· + ·) (product_apply A W p n) (product_apply A' W' p n)) (biasRow_apply B p n)

end Cert.KernelIdeal.GateBlock

end
-- ==== Proof.BodyBlocks.lean ====
/-
  What the kernel body leaves in its two output blocks, entry by entry, on the extended reals.

  At one grid point the body computes the [256, 4096] gate block (its columns 0..1023 the input gate, 1024..2047 the
  forget gate, 2048..3071 the candidate, 3072..4095 the output gate) and from it, for block row p and hidden unit j,

      c'(p, j) = sigma(g(p, 1024 + j)) * c(p, j) + sigma(g(p, j)) * tanh(g(p, 2048 + j)),
      h'(p, j) = sigma(g(p, 3072 + j)) * tanh(c'(p, j)).

  The body stores c' and h' whole, each through one rectangle that covers its block, so each output block is that
  function of the point's operands. Stated over arbitrary operands of the blocks' shapes.
-/
import proofs.«125485_j48481590837364_2_alg».proof.Proof.Gen.KernelIdeal.Value
import proofs.«125485_j48481590837364_2_alg».proof.Proof.CellSpec
import proofs.«125485_j48481590837364_2_alg».proof.Proof.GateBlock

noncomputable section

namespace Cert.KernelIdeal.BodyBlocks

open Cert.KernelIdeal Cert.KernelIdeal.Gen Cert.KernelIdeal.Value Cert.KernelIdeal.GateBlock
open Idealize.ShloMosaic Idealize.ShloMosaic.ValueIdx LstmCell

/-- The zero offsets of a whole-block access. -/
theorem hz : (![0, 0] : Fin 2 → Nat) = fun _ => 0 := funext fun a => by fin_cases a <;> rfl

variable (x0 x1 : FVec Ideal S256x1024 .f32) (x2 x3 : FVec Ideal S1024x4096 .bf16) (x4 : FVec Ideal S1x4096 .f32)
  (x5 : FVec Ideal S256x1024 .f32)

/-- The new cell state of block row `p`, hidden unit `j`, from the point's operands. -/
def cellEntry (p : Fin 256) (j : Fin 1024) : EReal :=
  cellOf (blockPre x0 x1 x2 x3 x4 p (gateCol 1024 (by norm_num) j)) (blockPre x0 x1 x2 x3 x4 p (gateCol 0 (by norm_num) j))
    (blockPre x0 x1 x2 x3 x4 p (gateCol 2048 (by norm_num) j)) (x5 (ix2 p j))

/-- THE CELL-STATE BLOCK at (p, j). -/
theorem cellBlock_apply (p : Fin 256) (j : Fin 1024) :
    out0_7 (F := Ideal) x0 x1 x2 x3 x4 x5 (ix2 p j) = cellEntry x0 x1 x2 x3 x4 x5 p j := by
  have e0 : ix7_0 (ix2 p j) = ix2 p (gateCol 1024 (by norm_num) j) :=
    funext fun a => by match a with | ⟨0, _⟩ => rfl | ⟨1, _⟩ => rfl
  have e1 : ix7_1 (ix2 p j) = ix2 p j :=
    funext fun a => by match a with | ⟨0, _⟩ => rfl | ⟨1, _⟩ => rfl
  have e2 : ix7_2 (ix2 p j) = ix2 p (gateCol 0 (by norm_num) j) :=
    funext fun a => by match a with | ⟨0, _⟩ => rfl | ⟨1, _⟩ => rfl
  have e3 : ix7_3 (ix2 p j) = ix2 p (gateCol 2048 (by norm_num) j) :=
    funext fun a => by match a with | ⟨0, _⟩ => rfl | ⟨1, _⟩ => rfl
  unfold out0_7
  refine (canon7_eq _ _ _ _ _ _ (ix2 p j)).trans ?_
  simp only [View.ld_unit_zero (S := S256x1024) hz, View.ld_unit_zero (S := S1024x4096) hz,
    View.ld_unit_zero (S := S1x4096) hz]
  show FloatOps.addf (FloatOps.mulf (FloatOps.logistic (k0_pay1 x0 x1 x2 x3 x4 (ix7_0 (ix2 p j)))) (x5 (ix7_1 (ix2 p j))))
      (FloatOps.mulf (FloatOps.logistic (k0_pay1 x0 x1 x2 x3 x4 (ix7_2 (ix2 p j))))
        (FloatOps.tanh (k0_pay1 x0 x1 x2 x3 x4 (ix7_3 (ix2 p j))))) = _
  rw [e0, e1, e2, e3, gates_apply, gates_apply, gates_apply]
  rfl

/-- THE HIDDEN-STATE BLOCK at (p, j). -/
theorem hiddenBlock_apply (p : Fin 256) (j : Fin 1024) :
    out0_6 (F := Ideal) x0 x1 x2 x3 x4 x5 (ix2 p j)
      = hiddenOf (blockPre x0 x1 x2 x3 x4 p (gateCol 3072 (by norm_num) j)) (cellEntry x0 x1 x2 x3 x4 x5 p j) := by
  have e0 : ix6_0 (ix2 p j) = ix2 p (gateCol 3072 (by norm_num) j) :=
    funext fun a => by match a with | ⟨0, _⟩ => rfl | ⟨1, _⟩ => rfl
  have e1 : ix6_1 (ix2 p j) = ix2 p (gateCol 1024 (by norm_num) j) :=
    funext fun a => by match a with | ⟨0, _⟩ => rfl | ⟨1, _⟩ => rfl
  have e2 : ix6_2 (ix2 p j) = ix2 p j :=
    funext fun a => by match a with | ⟨0, _⟩ => rfl | ⟨1, _⟩ => rfl
  have e3 : ix6_3 (ix2 p j) = ix2 p (gateCol 0 (by norm_num) j) :=
    funext fun a => by match a with | ⟨0, _⟩ => rfl | ⟨1, _⟩ => rfl
  have e4 : ix6_4 (ix2 p j) = ix2 p (gateCol 2048 (by norm_num) j) :=
    funext fun a => by match a with | ⟨0, _⟩ => rfl | ⟨1, _⟩ => rfl
  unfold out0_6
  refine (canon6_eq _ _ _ _ _ _ (ix2 p j)).trans ?_
  simp only [View.ld_unit_zero (S := S256x1024) hz, View.ld_unit_zero (S := S1024x4096) hz,
    View.ld_unit_zero (S := S1x4096) hz]
  show FloatOps.mulf (FloatOps.logistic (k0_pay1 x0 x1 x2 x3 x4 (ix6_0 (ix2 p j))))
      (FloatOps.tanh (FloatOps.addf
        (FloatOps.mulf (FloatOps.logistic (k0_pay1 x0 x1 x2 x3 x4 (ix6_1 (ix2 p j)))) (x5 (ix6_2 (ix2 p j))))
        (FloatOps.mulf (FloatOps.logistic (k0_pay1 x0 x1 x2 x3 x4 (ix6_3 (ix2 p j))))
          (FloatOps.tanh (k0_pay1 x0 x1 x2 x3 x4 (ix6_4 (ix2 p j))))))) = _
  rw [e0, e1, e2, e3, e4, gates_apply, gates_apply, gates_apply, gates_apply]
  rfl

end Cert.KernelIdeal.BodyBlocks

end
-- ==== Proof.Prepared.lean ====
/-
  The three operands the host prepares for the kernel, read at an entry.

  Before the kernel is launched the host stacks each weight array [4, 1024, 1024] into [4096, 1024], transposes it to
  [1024, 4096] (input unit by stacked gate column) and narrows the float format, which on the extended reals changes
  nothing; and it stacks the two bias arrays [4, 1024] into [4096], adds them and lays the sum out as one row [1, 4096].
  So entry (k, n) of a prepared weight operand is the argument's entry at gate n / 1024, output unit n % 1024, input
  unit k, and entry (0, n) of the prepared bias row is bx + bh at gate n / 1024, unit n % 1024.
-/
import proofs.«125485_j48481590837364_2_alg».proof.Proof.Gen.KernelIdeal.Frame
import proofs.«125485_j48481590837364_2_alg».proof.Proof.CellSpec
import Idealize.ShloMosaic.Lib.ValueLayout
import Idealize.ShloMosaic.Lib.StableHlo.Run

noncomputable section

namespace Cert.KernelIdeal.Prepared

open Cert.KernelIdeal Cert.KernelIdeal.Gen Idealize.ShloMosaic Idealize.ShloMosaic.TcCoe Idealize.SL.Sem
open Idealize.ShloMosaic.ValueIdx Idealize.ShloMosaic.StableHlo LstmCell

variable (m : (ℓ : Loc nD τ sig) → Buf (Elt Ideal) ℓ)

/-- The argument arrays Wx, Wh, bx, bh on core `c`, as functions to the extended reals. -/
abbrev argWx (c : Dev nD) : S4x1024x1024.Idx → EReal := m ((c : Thread nD τ).loc main_arg3)
abbrev argWh (c : Dev nD) : S4x1024x1024.Idx → EReal := m ((c : Thread nD τ).loc main_arg4)
abbrev argBx (c : Dev nD) : S4x1024.Idx → EReal := m ((c : Thread nD τ).loc main_arg5)
abbrev argBh (c : Dev nD) : S4x1024.Idx → EReal := m ((c : Thread nD τ).loc main_arg6)

/-- The prepared input weights: Wx stacked, transposed, narrowed. -/
theorem inputWeights_eq (c : Dev nD) :
    (V m c main_v8 : S1024x4096.Idx → EReal)
      = truncf (F := Ideal) .bf16 (transpose S1024x4096 [1, 0] (shapeCast S4096x1024 (argWx m c)
          shapeCasts_S4x1024x1024_S4096x1024) transposes_S4096x1024_S1024x4096_1_0) bitsLt_bf16_f32 := by
  dsimp only [Gen.V, Gen.hostOps0]; after_results; rfl

/-- The prepared hidden weights: Wh stacked, transposed, narrowed. -/
theorem hiddenWeights_eq (c : Dev nD) :
    (V m c main_v9 : S1024x4096.Idx → EReal)
      = truncf (F := Ideal) .bf16 (transpose S1024x4096 [1, 0] (shapeCast S4096x1024 (argWh m c)
          shapeCasts_S4x1024x1024_S4096x1024) transposes_S4096x1024_S1024x4096_1_0) bitsLt_bf16_f32 := by
  dsimp only [Gen.V, Gen.hostOps0]; after_results; rfl

/-- The prepared bias row: bx and bh stacked, added, laid out as one row. -/
theorem biasRow_eq (c : Dev nD) :
    (V m c main_v7 : S1x4096.Idx → EReal)
      = shapeCast S1x4096 (addf (F := Ideal) (φ := .f32) (shapeCast S4096 (argBx m c) shapeCasts_S4x1024_S4096)
          (shapeCast S4096 (argBh m c) shapeCasts_S4x1024_S4096)) shapeCasts_S4096_S1x4096 := by
  dsimp only [Gen.V, Gen.hostOps0]; after_results; rfl

/-- A stacked, transposed, narrowed weight array at (k, n): the argument at gate n / 1024, unit n % 1024, input k. -/
theorem prepared_apply (X : S4x1024x1024.Idx → EReal) (k : Fin 1024) (n : Fin 4096) :
    (truncf (F := Ideal) .bf16 (transpose S1024x4096 [1, 0] (shapeCast S4096x1024 X shapeCasts_S4x1024x1024_S4096x1024)
        transposes_S4096x1024_S1024x4096_1_0) bitsLt_bf16_f32 : FVec Ideal S1024x4096 .bf16) (ix2 k n) = X (stackedW n k) := by
  show transpose S1024x4096 [1, 0] (shapeCast S4096x1024 X shapeCasts_S4x1024x1024_S4096x1024)
    transposes_S4096x1024_S1024x4096_1_0 (ix2 k n) = _
  exact (transpose_ix2_apply _ transposes_S4096x1024_S1024x4096_1_0 k n).trans
    (stackW_apply X shapeCasts_S4x1024x1024_S4096x1024 n k)

theorem inputWeights_apply (c : Dev nD) (k : Fin 1024) (n : Fin 4096) :
    (V m c main_v8 : S1024x4096.Idx → EReal) (ix2 k n)
      = argWx m c (stackedW n k) := by
  rw [inputWeights_eq]
  exact prepared_apply _ k n

theorem hiddenWeights_apply (c : Dev nD) (k : Fin 1024) (n : Fin 4096) :
    (V m c main_v9 : S1024x4096.Idx → EReal) (ix2 k n)
      = argWh m c (stackedW n k) := by
  rw [hiddenWeights_eq]
  exact prepared_apply _ k n

theorem biasRow_apply (c : Dev nD) (n : Fin 4096) :
    (V m c main_v7 : S1x4096.Idx → EReal) (ix2 (0 : Fin 1) n)
      = argBx m c (stackedB n) + argBh m c (stackedB n) := by
  rw [biasRow_eq]
  refine (shapeCast_a_1a_apply _ shapeCasts_S4096_S1x4096 (0 : Fin 1) n).trans ?_
  exact congrArg₂ (· + ·) (stackB_apply _ shapeCasts_S4x1024_S4096 n) (stackB_apply _ shapeCasts_S4x1024_S4096 n)

end Cert.KernelIdeal.Prepared

end
-- ==== Proof.BlockReads.lean ====
/-
  Each input window's block at a grid point, read off the argument arrays.

  The grid has 16 points; point t works on rows 256 t .. 256 t + 255. The windows of x, h and c hand the body those
  256 rows (block index (t, 0)); the windows of the two prepared weight operands and of the prepared bias row hand
  it the whole operand at every point (block index (0, 0)). So, at point t, the gate pre-activation the body forms
  for block row p and stacked column n is the cell's pre-activation `pre` at array row 256 t + p, column n.
-/
import proofs.«125485_j48481590837364_2_alg».proof.Proof.Gen.KernelIdeal.Frame
import proofs.«125485_j48481590837364_2_alg».proof.Proof.CellSpec
import proofs.«125485_j48481590837364_2_alg».proof.Proof.GateBlock
import proofs.«125485_j48481590837364_2_alg».proof.Proof.Prepared

noncomputable section

namespace Cert.KernelIdeal.BlockReads

open Cert.KernelIdeal Cert.KernelIdeal.Gen Cert.KernelIdeal.Prepared
open Idealize.ShloMosaic Idealize.ShloMosaic.TcCoe Idealize.SL.Sem Idealize.ShloMosaic.ValueIdx LstmCell

variable (m : (ℓ : Loc nD τ sig) → Buf (Elt Ideal) ℓ)

/-- The argument arrays x, h, c on core `c`, as functions to the extended reals. -/
abbrev argX (c : Dev nD) : S4096x1024.Idx → EReal := m ((c : Thread nD τ).loc main_arg0)
abbrev argH (c : Dev nD) : S4096x1024.Idx → EReal := m ((c : Thread nD τ).loc main_arg1)
abbrev argC (c : Dev nD) : S4096x1024.Idx → EReal := m ((c : Thread nD τ).loc main_arg2)

/-- The printed index maps over the grid: the row-tiled windows are at block (t, 0), the whole operands at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- There are 16 grid points. -/
theorem point_lt (t : Fin cfg0.N) : t.val < 16 := by
  have h := t.isLt
  have hN : cfg0.N = 16 := N_0
  omega

/-- The array row of block row `p` at point `t`. -/
def rowOf (t : Fin cfg0.N) (p : Fin 256) : Fin 4096 :=
  ⟨t.val * 256 + p.val, by have := point_lt t; have := p.isLt; omega⟩

/-- The block of x at point t, entry (p, k): x at row 256 t + p. -/
theorem xBlock_apply (c : Dev nD) (t : Fin cfg0.N) (p : Fin 256) (k : Fin 1024) :
    (iblk m c 0 t : FVec Ideal S256x1024 .f32) (ix2 p k) = argX m c (ix2 (rowOf t p) k) := by
  obtain ⟨e0, e1, -⟩ := idx_facts t
  unfold iblk
  rw [View.read_apply]
  show V m c main_arg0 _ = _
  rw [V_main_arg0]
  refine congrArg (argX m c) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- The block of h at point t, entry (p, k): h at row 256 t + p. -/
theorem hBlock_apply (c : Dev nD) (t : Fin cfg0.N) (p : Fin 256) (k : Fin 1024) :
    (iblk m c 1 t : FVec Ideal S256x1024 .f32) (ix2 p k) = argH m c (ix2 (rowOf t p) k) := by
  obtain ⟨-, -, e0, e1, -⟩ := idx_facts t
  unfold iblk
  rw [View.read_apply]
  show V m c main_arg1 _ = _
  rw [V_main_arg1]
  refine congrArg (argH m c) (funext fun a => Fin.ext ?_)
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

/-- The block of c at point t, entry (p, j): c at row 256 t + p. -/
theorem cBlock_apply (c : Dev nD) (t : Fin cfg0.N) (p : Fin 256) (j : Fin 1024) :
    (iblk m c 5 t : FVec Ideal S256x1024 .f32) (ix2 p j) = argC m c (ix2 (rowOf t p) j) := by
  obtain ⟨-, -, -, -, -, -, -, -, -, -, e0, e1, -⟩ := idx_facts t
  unfold iblk
  rw [View.read_apply]
  show V m c main_arg2 _ = _
  rw [V_main_arg2]
  refine congrArg (argC m c) (funext fun a => Fin.ext ?_)
  match a with
  | ⟨0, _⟩ => show win0_5.index t (0 : Fin 2) * 256 + 1 * p.val = t.val * 256 + p.val; rw [e0]; omega
  | ⟨1, _⟩ => show win0_5.index t (1 : Fin 2) * 1024 + 1 * j.val = j.val; rw [e1]; omega

/-- The prepared input weights' block is the whole operand, at every point. -/
theorem wxBlock_apply (c : Dev nD) (t : Fin cfg0.N) (k : Fin 1024) (n : Fin 4096) :
    (iblk m c 2 t : FVec Ideal S1024x4096 .bf16) (ix2 k n) = (V m c main_v8 : S1024x4096.Idx → EReal) (ix2 k n) := by
  obtain ⟨-, -, -, -, e0, e1, -⟩ := idx_facts t
  unfold iblk
  rw [View.read_apply]
  show (V m c main_v8 : S1024x4096.Idx → EReal) _ = _
  refine congrArg (V m c main_v8 : S1024x4096.Idx → EReal) (funext fun a => Fin.ext ?_)
  match a with
  | ⟨0, _⟩ => show win0_2.index t (0 : Fin 2) * 1024 + 1 * k.val = k.val; rw [e0]; omega
  | ⟨1, _⟩ => show win0_2.index t (1 : Fin 2) * 4096 + 1 * n.val = n.val; rw [e1]; omega

/-- The prepared hidden weights' block is the whole operand, at every point. -/
theorem whBlock_apply (c : Dev nD) (t : Fin cfg0.N) (k : Fin 1024) (n : Fin 4096) :
    (iblk m c 3 t : FVec Ideal S1024x4096 .bf16) (ix2 k n) = (V m c main_v9 : S1024x4096.Idx → EReal) (ix2 k n) := by
  obtain ⟨-, -, -, -, -, -, e0, e1, -⟩ := idx_facts t
  unfold iblk
  rw [View.read_apply]
  show (V m c main_v9 : S1024x4096.Idx → EReal) _ = _
  refine congrArg (V m c main_v9 : S1024x4096.Idx → EReal) (funext fun a => Fin.ext ?_)
  match a with
  | ⟨0, _⟩ => show win0_3.index t (0 : Fin 2) * 1024 + 1 * k.val = k.val; rw [e0]; omega
  | ⟨1, _⟩ => show win0_3.index t (1 : Fin 2) * 4096 + 1 * n.val = n.val; rw [e1]; omega

/-- The prepared bias row's block is the whole row, at every point. -/
theorem biasBlock_apply (c : Dev nD) (t : Fin cfg0.N) (n : Fin 4096) :
    (iblk m c 4 t : FVec Ideal S1x4096 .f32) (ix2 (0 : Fin 1) n) = (V m c main_v7 : S1x4096.Idx → EReal) (ix2 (0 : Fin 1) n) := by
  obtain ⟨-, -, -, -, -, -, -, -, e0, e1, -⟩ := idx_facts t
  unfold iblk
  rw [View.read_apply]
  show (V m c main_v7 : S1x4096.Idx → EReal) _ = _
  refine congrArg (V m c main_v7 : S1x4096.Idx → EReal) (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 4096 + 1 * n.val = n.val; rw [e1]; omega

/-- THE PRE-ACTIVATION THE BODY FORMS at point t for block row p is the cell's at array row 256 t + p. -/
theorem blockPre_eq (c : Dev nD) (t : Fin cfg0.N) (p : Fin 256) (n : Fin 4096) :
    GateBlock.blockPre (iblk m c 0 t) (iblk m c 1 t) (iblk m c 2 t) (iblk m c 3 t) (iblk m c 4 t) p n
      = pre (argX m c) (argH m c) (argWx m c) (argWh m c) (argBx m c) (argBh m c) (rowOf t p) n := by
  unfold GateBlock.blockPre pre
  refine congrArg₂ (· + ·) (congrArg₂ (· + ·) (Finset.sum_congr rfl fun k _ => ?_) (Finset.sum_congr rfl fun k _ => ?_)) ?_
  · exact congrArg₂ (· * ·) (xBlock_apply m c t p k) ((wxBlock_apply m c t k n).trans (inputWeights_apply m c k n))
  · exact congrArg₂ (· * ·) (hBlock_apply m c t p k) ((whBlock_apply m c t k n).trans (hiddenWeights_apply m c k n))
  · exact (biasBlock_apply m c t n).trans (Prepared.biasRow_apply m c n)

end Cert.KernelIdeal.BlockReads

end
-- ==== Proof.ResultArrays.lean ====
/-
  The kernel's two result arrays after the run: the cell of the specification.

  Point t of the 16-point grid writes back rows 256 t .. 256 t + 255 of each result. What it writes at block entry
  (p, j) is the body's cell and hidden update from the point's operands, and those operands are the arguments' rows
  256 t .. 256 t + 255, the whole prepared weights and the whole prepared bias row; so the entry is the specification's
  cell, or hidden state, at array row 256 t + p and unit j. The sixteen blocks tile the 4096 rows: row R lies in the
  block of point R / 256. Hence each result array, after the run, is the specification's array of the arguments.
-/
import proofs.«125485_j48481590837364_2_alg».proof.Proof.Gen.KernelIdeal.Value
import proofs.«125485_j48481590837364_2_alg».proof.Proof.CellSpec
import proofs.«125485_j48481590837364_2_alg».proof.Proof.BodyBlocks
import proofs.«125485_j48481590837364_2_alg».proof.Proof.BlockReads
import Idealize.ShloMosaic.Lib.Pipeline.Value

noncomputable section

namespace Cert.KernelIdeal.ResultArrays

open Cert.KernelIdeal Cert.KernelIdeal.Gen Cert.KernelIdeal.Value Cert.KernelIdeal.Prepared
open Cert.KernelIdeal.BlockReads Cert.KernelIdeal.BodyBlocks
open Idealize.ShloMosaic Idealize.ShloMosaic.TcCoe Idealize.SL.Sem Idealize.ShloMosaic.ValueIdx LstmCell
open Idealize.ShloMosaic.Pipeline (Dat)

variable (m : (ℓ : Loc nD τ sig) → Buf (Elt Ideal) ℓ) (ρ : Dev nD → PrngReg)

/-- The new cell state of the arguments on core `c`. -/
abbrev cellG (c : Dev nD) : S4096x1024.Idx → EReal :=
  cell (argX m c) (argH m c) (argWx m c) (argWh m c) (argBx m c) (argBh m c) (argC m c)

/-- The new hidden state of the arguments on core `c`. -/
abbrev hiddenG (c : Dev nD) : S4096x1024.Idx → EReal :=
  hidden (argX m c) (argH m c) (argWx m c) (argWh m c) (argBx m c) (argBh m c) (argC m c)

/-! ## What one point computes, in terms of the arguments -/

/-- The cell entry the body forms at point t, block row p, unit j is the cell's at array row 256 t + p. -/
theorem cellEntry_eq (c : Dev nD) (t : Fin cfg0.N) (p : Fin 256) (j : Fin 1024) :
    cellEntry (iblk m c 0 t) (iblk m c 1 t) (iblk m c 2 t) (iblk m c 3 t) (iblk m c 4 t) (iblk m c 5 t) p j
      = cellAt (argX m c) (argH m c) (argWx m c) (argWh m c) (argBx m c) (argBh m c) (argC m c) (rowOf t p) j := by
  unfold cellEntry cellAt
  rw [blockPre_eq, blockPre_eq, blockPre_eq, cBlock_apply]

/-- Block entry (p, j) of either result's block at point t sits at array entry (256 t + p, j). -/
theorem outRow6 (t : Fin cfg0.N) (p : Fin 256) (j : Fin 1024) :
    ((cfg0.win 6).blk t).view.emb (ix2 p j) = (ix2 (rowOf t p) j : S4096x1024.Idx) := by
  obtain ⟨-, -, -, -, -, -, -, -, -, -, -, -, e0, e1, -⟩ := idx_facts t
  funext a
  apply Fin.ext
  match a with
  | ⟨0, _⟩ => show win0_6.index t (0 : Fin 2) * 256 + 1 * p.val = t.val * 256 + p.val; rw [e0]; omega
  | ⟨1, _⟩ => show win0_6.index t (1 : Fin 2) * 1024 + 1 * j.val = j.val; rw [e1]; omega

theorem outRow7 (t : Fin cfg0.N) (p : Fin 256) (j : Fin 1024) :
    ((cfg0.win 7).blk t).view.emb (ix2 p j) = (ix2 (rowOf t p) j : S4096x1024.Idx) := by
  obtain ⟨-, -, -, -, -, -, -, -, -, -, -, -, -, -, e0, e1⟩ := idx_facts t
  funext a
  apply Fin.ext
  match a with
  | ⟨0, _⟩ => show win0_7.index t (0 : Fin 2) * 256 + 1 * p.val = t.val * 256 + p.val; rw [e0]; omega
  | ⟨1, _⟩ => show win0_7.index t (1 : Fin 2) * 1024 + 1 * j.val = j.val; rw [e1]; omega

/-! ## What one point writes back -/

/-- WHAT POINT t WRITES BACK to the cell-state result is block t of the cell's array. -/
theorem flushed_cell (c : Dev nD) (t : Fin cfg0.N) :
    (dats m 0 c).flushed 7 t = ((cfg0.win 7).blk t).view.read (Elt Ideal) (cellG m c) := by
  rw [flushed7]
  refine funext fun (y : S256x1024.Idx) => ?_
  obtain ⟨p, j, rfl⟩ : ∃ (p : Fin 256) (j : Fin 1024), y = ix2 p j := ⟨y 0, y 1, eq_ix2 y⟩
  show out0_7 (iblk m c 0 t) (iblk m c 1 t) (iblk m c 2 t) (iblk m c 3 t) (iblk m c 4 t) (iblk m c 5 t) (ix2 p j)
    = cellG m c (((cfg0.win 7).blk t).view.emb (ix2 p j))
  rw [outRow7 t p j]
  exact (cellBlock_apply (iblk m c 0 t) (iblk m c 1 t) (iblk m c 2 t) (iblk m c 3 t) (iblk m c 4 t) (iblk m c 5 t) p j).trans
    (cellEntry_eq m c t p j)

/-- WHAT POINT t WRITES BACK to the hidden-state result is block t of the hidden state's array. -/
theorem flushed_hidden (c : Dev nD) (t : Fin cfg0.N) :
    (dats m 0 c).flushed 6 t = ((cfg0.win 6).blk t).view.read (Elt Ideal) (hiddenG m c) := by
  rw [flushed6]
  refine funext fun (y : S256x1024.Idx) => ?_
  obtain ⟨p, j, rfl⟩ : ∃ (p : Fin 256) (j : Fin 1024), y = ix2 p j := ⟨y 0, y 1, eq_ix2 y⟩
  show out0_6 (iblk m c 0 t) (iblk m c 1 t) (iblk m c 2 t) (iblk m c 3 t) (iblk m c 4 t) (iblk m c 5 t) (ix2 p j)
    = hiddenG m c (((cfg0.win 6).blk t).view.emb (ix2 p j))
  rw [outRow6 t p j]
  refine (hiddenBlock_apply (iblk m c 0 t) (iblk m c 1 t) (iblk m c 2 t) (iblk m c 3 t) (iblk m c 4 t) (iblk m c 5 t) p j).trans ?_
  rw [blockPre_eq, cellEntry_eq]
  rfl

/-! ## The sixteen blocks tile the rows -/

/-- An array index is in point t's block iff each coordinate is in the block's range on its axis. -/
theorem mem_blk6 (t : Fin cfg0.N) (i : S4096x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v10_0).slice (win0_6.rect t)).set ↔ _
  rw [View.set_slice_whole, Rect.mem_set_unit]
  exact Iff.rfl

theorem mem_blk7 (t : Fin cfg0.N) (i : S4096x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v10_1).slice (win0_7.rect t)).set ↔ _
  rw [View.set_slice_whole, Rect.mem_set_unit]
  exact Iff.rfl

/-- Row R of the hidden-state result lies in the block of point R / 256. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨-, -, -, -, -, -, -, -, -, -, -, -, e0, e1, -⟩ := idx_facts t
  refine ⟨t, flush0_6 t, ?_⟩
  rw [mem_blk6]
  intro a
  match a with
  | ⟨0, _⟩ =>
    show win0_6.index t (0 : Fin 2) * 256 ≤ (i 0).val ∧ (i 0).val < win0_6.index t (0 : Fin 2) * 256 + 256
    rw [e0]; omega
  | ⟨1, _⟩ =>
    show win0_6.index t (1 : Fin 2) * 1024 ≤ (i 1).val ∧ (i 1).val < win0_6.index t (1 : Fin 2) * 1024 + 1024
    rw [e1]; omega

/-- Row R of the cell-state result lies in the block of point R / 256. -/
theorem cover7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨-, -, -, -, -, -, -, -, -, -, -, -, -, -, e0, e1⟩ := idx_facts t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    rw [e0]; omega
  | ⟨1, _⟩ =>
    show win0_7.index t (1 : Fin 2) * 1024 ≤ (i 1).val ∧ (i 1).val < win0_7.index t (1 : Fin 2) * 1024 + 1024
    rw [e1]; omega

/-! ## The result arrays, and the run -/

/-- The hidden-state result after the run. -/
theorem final_hidden (c : Dev nD) : (dats m 0 c).arrAt 6 cfg0.N = hiddenG m c :=
  (dats m 0 c).arrAt_eq_of_cover 6 (hiddenG m c) (fun t _ => flushed_hidden m c t) cover6

/-- The cell-state result after the run. -/
theorem final_cell (c : Dev nD) : (dats m 0 c).arrAt 7 cfg0.N = cellG m c :=
  (dats m 0 c).arrAt_eq_of_cover 7 (cellG m c) (fun t _ => flushed_cell m c t) cover7

/-- THE KERNEL'S RUN, READ: every weakly fair execution terminates with the two results at the cell's hidden and
    cell state of the arguments, and the arguments unchanged. -/
theorem run : θ_run defs (onTc (τ := τ) (main (F := Ideal))) ⟨m, fun _ => 0, ρ⟩ fun r => ∀ c : Dev nD,
      r.2.mem ((c : Thread nD τ).loc main_v10_0) = hiddenG m c
      ∧ r.2.mem ((c : Thread nD τ).loc main_v10_1) = cellG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.KernelIdeal.ResultArrays

end
-- ==== Proof.RefCell.lean ====
/-
  The reference program's two results are the cell of the specification, entry by entry, on the extended reals.

  The reference forms, for the whole batch at once, gx = x . Wxs^T + bxs and gh = h . Whs^T + bhs (Wxs, Whs, bxs, bhs
  the four gates' weights and biases stacked), adds them, cuts the sum into the four gates by a reshape to
  [4096, 4, 1024] and a slice per gate, and applies the logistic function spelled out as 1 / (1 + exp(-v)) and tanh.

  Read at batch row R and hidden unit j: gate number q of the reshaped sum is the sum's column 1024 q + j; the sum's
  entry (R, n) is (sum_k x(R,k) Wxs(n,k) + bxs(n)) + (sum_k h(R,k) Whs(n,k) + bhs(n)), which is the cell's
  pre-activation by the regrouping law of a commutative sum; and 1 / (1 + exp(-v)) with the pattern of 1.0 for 1 is
  the logistic function by its definition. Nothing is assumed finite.
-/
import proofs.«125485_j48481590837364_2_alg».proof.Proof.Gen.ReferenceIdeal.Read
import proofs.«125485_j48481590837364_2_alg».proof.Proof.CellSpec
import Idealize.ShloMosaic.Lib.ValueLayout

noncomputable section

namespace Cert.ReferenceIdeal.RefCell

open Cert.ReferenceIdeal Cert.ReferenceIdeal.Gen Cert.ReferenceIdeal.Read
open Idealize.ShloMosaic Idealize.ShloMosaic.ValueIdx LstmCell

/-- The stacked, transposed input weights at (k, n): gate n / 1024, output unit n % 1024, input unit k. -/
theorem inputWeights_apply (X : S4x1024x1024.Idx → EReal) (k : Fin 1024) (n : Fin 4096) :
    val_main_v1 (F := Ideal) X (ix2 k n) = X (stackedW n k) := by
  unfold val_main_v1 val_main_v0
  exact (transpose_ix2_apply _ transposes_S4096x1024_S1024x4096_1_0 k n).trans
    (stackW_apply X shapeCasts_S4x1024x1024_S4096x1024 n k)

/-- The stacked, transposed hidden weights at (k, n). -/
theorem hiddenWeights_apply (X : S4x1024x1024.Idx → EReal) (k : Fin 1024) (n : Fin 4096) :
    val_main_v8 (F := Ideal) X (ix2 k n) = X (stackedW n k) := by
  unfold val_main_v8 val_main_v7
  exact (transpose_ix2_apply _ transposes_S4096x1024_S1024x4096_1_0 k n).trans
    (stackW_apply X shapeCasts_S4x1024x1024_S4096x1024 n k)

/-- The stacked input bias broadcast over the batch, at (R, n): the bias of gate n / 1024, unit n % 1024. -/
theorem inputBias_apply (B : S4x1024.Idx → EReal) (R n : Fin 4096) :
    val_main_v5 (F := Ideal) B (ix2 R n) = B (stackedB n) := by
  rw [val_main_v5_apply, val_main_v4_apply]
  have e : idx_main_v4 (idx_main_v5 (ix2 R n)) = ix1 n := funext fun a => by match a with | ⟨0, _⟩ => rfl
  rw [e]
  unfold val_main_v3
  exact stackB_apply B shapeCasts_S4x1024_S4096 n

/-- The stacked hidden bias broadcast over the batch, at (R, n). -/
theorem hiddenBias_apply (B : S4x1024.Idx → EReal) (R n : Fin 4096) :
    val_main_v12 (F := Ideal) B (ix2 R n) = B (stackedB n) := by
  rw [val_main_v12_apply, val_main_v11_apply]
  have e : idx_main_v11 (idx_main_v12 (ix2 R n)) = ix1 n := funext fun a => by match a with | ⟨0, _⟩ => rfl
  rw [e]
  unfold val_main_v10
  exact stackB_apply B shapeCasts_S4x1024_S4096 n

section
variable (x0 x1 x2 : S4096x1024.Idx → EReal) (x3 x4 : S4x1024x1024.Idx → EReal) (x5 x6 : S4x1024.Idx → EReal)

/-- x times the stacked input weights, at (R, n): the sum over the input units. -/
theorem inputProduct_apply (R n : Fin 4096) :
    val_main_v2 (F := Ideal) x0 x3 (ix2 R n) = ∑ k : Fin 1024, x0 (ix2 R k) * x3 (stackedW n k) := by
  rw [val_main_v2_apply]
  refine Finset.sum_congr rfl fun k _ => ?_
  have el : lidx_main_v2 (ix2 R n) k = ix2 R k := funext fun a => by match a with | ⟨0, _⟩ => rfl | ⟨1, _⟩ => rfl
  have er : ridx_main_v2 (ix2 R n) k = ix2 k n := funext fun a => by match a with | ⟨0, _⟩ => rfl | ⟨1, _⟩ => rfl
  rw [el, er, inputWeights_apply]

/-- h times the stacked hidden weights, at (R, n). -/
theorem hiddenProduct_apply (R n : Fin 4096) :
    val_main_v9 (F := Ideal) x1 x4 (ix2 R n) = ∑ k : Fin 1024, x1 (ix2 R k) * x4 (stackedW n k) := by
  rw [val_main_v9_apply]
  refine Finset.sum_congr rfl fun k _ => ?_
  have el : lidx_main_v9 (ix2 R n) k = ix2 R k := funext fun a => by match a with | ⟨0, _⟩ => rfl | ⟨1, _⟩ => rfl
  have er : ridx_main_v9 (ix2 R n) k = ix2 k n := funext fun a => by match a with | ⟨0, _⟩ => rfl | ⟨1, _⟩ => rfl
  rw [el, er, hiddenWeights_apply]

/-- THE SUM OF THE TWO BIASED PRODUCTS at (R, n) is the cell's pre-activation: each bias was added to its own product,
    the cell adds the two biases together; the two groupings of the four terms are equal. -/
theorem pre_apply (R n : Fin 4096) :
    val_main_v14 (F := Ideal) x0 x1 x3 x4 x5 x6 (ix2 R n) = pre x0 x1 x3 x4 x5 x6 R n := by
  rw [val_main_v14_apply, val_main_v6_apply, val_main_v13_apply, inputProduct_apply, inputBias_apply,
    hiddenProduct_apply, hiddenBias_apply]
  exact pre_regroup x0 x1 x3 x4 x5 x6 R n

/-- Gate 0 of the reshaped sum (the input gate) at (R, j): the sum's column j. -/
theorem inputGatePre_apply (R : Fin 4096) (j : Fin 1024) :
    val_main_v17 (F := Ideal) x0 x1 x3 x4 x5 x6 (ix2 R j) = pre x0 x1 x3 x4 x5 x6 R (gateCol 0 (by norm_num) j) := by
  rw [val_main_v17_apply, val_main_v16_apply, val_main_v15_apply]
  have e : idx_main_v15 (idx_main_v16 (idx_main_v17 (ix2 R j))) = ix2 R (gateCol 0 (by norm_num) j) := by
    have hR := R.isLt
    have hj := j.isLt
    funext a
    apply Fin.ext
    match a with
    | ⟨0, _⟩ =>
      show (((R.val * 1024 + j.val) / 1024 * 4 + 0) * 1024 + (R.val * 1024 + j.val) % 1024) / 4096 = R.val
      omega
    | ⟨1, _⟩ =>
      show (((R.val * 1024 + j.val) / 1024 * 4 + 0) * 1024 + (R.val * 1024 + j.val) % 1024) % 4096 = j.val + 0
      omega
  rw [e, pre_apply]

/-- Gate 1 (the forget gate) at (R, j): the sum's column 1024 + j. -/
theorem forgetGatePre_apply (R : Fin 4096) (j : Fin 1024) :
    val_main_v25 (F := Ideal) x0 x1 x3 x4 x5 x6 (ix2 R j) = pre x0 x1 x3 x4 x5 x6 R (gateCol 1024 (by norm_num) j) := by
  rw [val_main_v25_apply, val_main_v24_apply, val_main_v15_apply]
  have e : idx_main_v15 (idx_main_v24 (idx_main_v25 (ix2 R j))) = ix2 R (gateCol 1024 (by norm_num) j) := by
    have hR := R.isLt
    have hj := j.isLt
    funext a
    apply Fin.ext
    match a with
    | ⟨0, _⟩ =>
      show (((R.val * 1024 + j.val) / 1024 * 4 + (1 + 0)) * 1024 + (R.val * 1024 + j.val) % 1024) / 4096 = R.val
      omega
    | ⟨1, _⟩ =>
      show (((R.val * 1024 + j.val) / 1024 * 4 + (1 + 0)) * 1024 + (R.val * 1024 + j.val) % 1024) % 4096 = j.val + 1024
      omega
  rw [e, pre_apply]

/-- Gate 2 (the candidate) at (R, j): the sum's column 2048 + j. -/
theorem candidatePre_apply (R : Fin 4096) (j : Fin 1024) :
    val_main_v33 (F := Ideal) x0 x1 x3 x4 x5 x6 (ix2 R j) = pre x0 x1 x3 x4 x5 x6 R (gateCol 2048 (by norm_num) j) := by
  rw [val_main_v33_apply, val_main_v32_apply, val_main_v15_apply]
  have e : idx_main_v15 (idx_main_v32 (idx_main_v33 (ix2 R j))) = ix2 R (gateCol 2048 (by norm_num) j) := by
    have hR := R.isLt
    have hj := j.isLt
    funext a
    apply Fin.ext
    match a with
    | ⟨0, _⟩ =>
      show (((R.val * 1024 + j.val) / 1024 * 4 + (2 + 0)) * 1024 + (R.val * 1024 + j.val) % 1024) / 4096 = R.val
      omega
    | ⟨1, _⟩ =>
      show (((R.val * 1024 + j.val) / 1024 * 4 + (2 + 0)) * 1024 + (R.val * 1024 + j.val) % 1024) % 4096 = j.val + 2048
      omega
  rw [e, pre_apply]

/-- Gate 3 (the output gate) at (R, j): the sum's column 3072 + j. -/
theorem outputGatePre_apply (R : Fin 4096) (j : Fin 1024) :
    val_main_v36 (F := Ideal) x0 x1 x3 x4 x5 x6 (ix2 R j) = pre x0 x1 x3 x4 x5 x6 R (gateCol 3072 (by norm_num) j) := by
  rw [val_main_v36_apply, val_main_v35_apply, val_main_v15_apply]
  have e : idx_main_v15 (idx_main_v35 (idx_main_v36 (ix2 R j))) = ix2 R (gateCol 3072 (by norm_num) j) := by
    have hR := R.isLt
    have hj := j.isLt
    funext a
    apply Fin.ext
    match a with
    | ⟨0, _⟩ =>
      show (((R.val * 1024 + j.val) / 1024 * 4 + (3 + 0)) * 1024 + (R.val * 1024 + j.val) % 1024) / 4096 = R.val
      omega
    | ⟨1, _⟩ =>
      show (((R.val * 1024 + j.val) / 1024 * 4 + (3 + 0)) * 1024 + (R.val * 1024 + j.val) % 1024) % 4096 = j.val + 3072
      omega
  rw [e, pre_apply]

/-- One divided by one plus exp of minus v, with the pattern of 1.0 for both ones, is the logistic function of v:
    its definition, once the pattern is read as the number one. -/
theorem sigmoid_eq (v : EReal) :
    FloatOps.hostDivf (F := Ideal) (φ := .f32) (FloatOps.ofBits .f32 0x3F800000#32)
      (FloatOps.addf (FloatOps.ofBits .f32 0x3F800000#32) (FloatOps.hostUnary .exp (FloatOps.hostNegf v))) = Ideal.logistic v := by
  show Ideal.div (Ideal.ofBits .f32 0x3F800000#32) (Ideal.ofBits .f32 0x3F800000#32 + Ideal.exp (-v)) = Ideal.div 1 (1 + Ideal.exp (-v))
  rw [one_f32]

/-- The input gate at (R, j). -/
theorem inputGate_apply (R : Fin 4096) (j : Fin 1024) :
    val_main_v23 (F := Ideal) x0 x1 x3 x4 x5 x6 (ix2 R j) = Ideal.logistic (pre x0 x1 x3 x4 x5 x6 R (gateCol 0 (by norm_num) j)) := by
  rw [val_main_v23_apply, val_main_v22_apply, val_main_v21_apply, val_main_v20_apply, val_main_v19_apply, val_main_v18_apply, inputGatePre_apply]
  exact sigmoid_eq _

/-- The forget gate at (R, j). -/
theorem forgetGate_apply (R : Fin 4096) (j : Fin 1024) :
    val_main_v31 (F := Ideal) x0 x1 x3 x4 x5 x6 (ix2 R j) = Ideal.logistic (pre x0 x1 x3 x4 x5 x6 R (gateCol 1024 (by norm_num) j)) := by
  rw [val_main_v31_apply, val_main_v30_apply, val_main_v29_apply, val_main_v28_apply, val_main_v27_apply, val_main_v26_apply, forgetGatePre_apply]
  exact sigmoid_eq _

/-- The output gate at (R, j). -/
theorem outputGate_apply (R : Fin 4096) (j : Fin 1024) :
    val_main_v42 (F := Ideal) x0 x1 x3 x4 x5 x6 (ix2 R j) = Ideal.logistic (pre x0 x1 x3 x4 x5 x6 R (gateCol 3072 (by norm_num) j)) := by
  rw [val_main_v42_apply, val_main_v41_apply, val_main_v40_apply, val_main_v39_apply, val_main_v38_apply, val_main_v37_apply, outputGatePre_apply]
  exact sigmoid_eq _

/-- THE REFERENCE'S NEW CELL STATE is the cell's. -/
theorem cell_eq : val_main_v45 (F := Ideal) x0 x1 x2 x3 x4 x5 x6 = cell x0 x1 x3 x4 x5 x6 x2 := by
  funext i
  obtain ⟨R, j, rfl⟩ : ∃ (R : Fin 4096) (j : Fin 1024), i = ix2 R j := ⟨i 0, i 1, eq_ix2 i⟩
  rw [val_main_v45_apply, val_main_v43_apply, val_main_v44_apply, forgetGate_apply, inputGate_apply,
    val_main_v34_apply, candidatePre_apply]
  rfl

/-- THE REFERENCE'S NEW HIDDEN STATE is the cell's. -/
theorem hidden_eq : val_main_v47 (F := Ideal) x0 x1 x2 x3 x4 x5 x6 = hidden x0 x1 x3 x4 x5 x6 x2 := by
  funext i
  obtain ⟨R, j, rfl⟩ : ∃ (R : Fin 4096) (j : Fin 1024), i = ix2 R j := ⟨i 0, i 1, eq_ix2 i⟩
  rw [val_main_v47_apply, val_main_v46_apply, outputGate_apply, cell_eq]
  rfl

end

end Cert.ReferenceIdeal.RefCell

end
-- ==== Proof.lean ====
/-
  An LSTM cell as one fused kernel against its textbook form, equal on the extended reals.

  Both programs take x, h, c : [4096, 1024], the input and hidden weights Wx, Wh : [4, 1024, 1024] (one matrix per
  gate: input, forget, candidate, output) and the biases bx, bh : [4, 1024], and return the new hidden state and the
  new cell state

      c' = sigma(g_f) * c + sigma(g_i) * tanh(g_c),      h' = sigma(g_o) * tanh(c'),

  where g = x . Wxs^T + h . Whs^T + bxs + bhs is the [4096, 4096] array of gate pre-activations (Wxs, Whs, bxs, bhs the
  four gates' weights and biases stacked; g_i, g_f, g_c, g_o its four bands of 1024 columns) and sigma the logistic
  function.

  The kernel works on 256 batch rows per grid point: it multiplies the rows of x and of h by the whole transposed,
  stacked weights, adds the two products, then the one row bxs + bhs the host prepared, and applies the gate
  functions to the four column bands of the block. The reference computes (x . Wxs^T + bxs) + (h . Whs^T + bhs) for the
  whole batch, reshapes to [4096, 4, 1024] and slices out each gate, with sigma spelled 1 / (1 + exp(-v)).

  At the ideal values a change of float format is the identity, a product into a zero accumulator and the host's
  product are the same finite sum, 1 / (1 + exp(-v)) is the logistic function by definition, and the two ways of
  adding the biases agree because addition of extended reals is commutative and associative:
  (A + B) + (b + b') = (A + b) + (B + b'). No step needs a finite value, so the precondition is never opened.

  The argument, entry by entry. For the kernel: at grid point t the block of x (of h, of c) is rows 256 t .. 256 t + 255
  of the argument, and the prepared operands are whole, with entry (k, n) of a prepared weight operand the argument's
  entry at gate n / 1024, output unit n % 1024, input unit k; so the gate block's entry (p, n) is the pre-activation of
  array row 256 t + p and stacked column n, the two output blocks' entries (p, j) are c' and h' at (256 t + p, j), and
  since row R lies in the block of point R / 256 the sixteen blocks written back make up the whole result arrays. For
  the reference: gate q of the reshaped sum at (R, j) is the sum's column 1024 q + j, and the sum's entry (R, n) is the
  same pre-activation by the regrouping above. Both programs therefore end with the same two functions of the seven
  arguments, and memories that agree on the arguments give equal results.
-/
import proofs.«125485_j48481590837364_2_alg».proof.Defs
import proofs.«125485_j48481590837364_2_alg».proof.Proof.Gen.Kernel
import proofs.«125485_j48481590837364_2_alg».proof.Proof.Gen.Kernel.Skeleton
import proofs.«125485_j48481590837364_2_alg».proof.Proof.Gen.Kernel.Launch
import proofs.«125485_j48481590837364_2_alg».proof.Proof.Gen.Kernel.Points
import proofs.«125485_j48481590837364_2_alg».proof.Proof.Gen.Kernel.Frame
import proofs.«125485_j48481590837364_2_alg».proof.Proof.Gen.KernelIdeal
import proofs.«125485_j48481590837364_2_alg».proof.Proof.Gen.KernelIdeal.Skeleton
import proofs.«125485_j48481590837364_2_alg».proof.Proof.Gen.KernelIdeal.Launch
import proofs.«125485_j48481590837364_2_alg».proof.Proof.Gen.KernelIdeal.Points
import proofs.«125485_j48481590837364_2_alg».proof.Proof.Gen.KernelIdeal.Frame
import proofs.«125485_j48481590837364_2_alg».proof.Proof.Gen.ReferenceIdeal
import proofs.«125485_j48481590837364_2_alg».proof.Proof.Gen.KernelIdeal.Value
import proofs.«125485_j48481590837364_2_alg».proof.Proof.Gen.ReferenceIdeal.Run
import proofs.«125485_j48481590837364_2_alg».proof.Proof.Gen.ReferenceIdeal.Read
import proofs.«125485_j48481590837364_2_alg».proof.Proof.Gen.Pre_finite_inputs
import proofs.«125485_j48481590837364_2_alg».proof.Proof.ResultArrays
import proofs.«125485_j48481590837364_2_alg».proof.Proof.RefCell
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The same at the ideal values. -/
theorem frame_kernelIdeal : Cert.frame_KernelIdeal := fun m ρ _ => Cert.KernelIdeal.Gen.frame m ρ

/-- The reference runs and leaves its arguments unchanged: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten when the kernel was idealized. -/
theorem preserves : Cert.preserves_Kernel_KernelIdeal := trivial

/-- From memories that agree on the seven arguments both programs end with the cell's hidden state and cell state
    of those arguments: the kernel by its run read block by block, the reference by its run read stage by stage. -/
theorem algebraic : Cert.algebraic_KernelIdeal_ReferenceIdeal := by
  intro m ρ m' ρ' _ hagree
  refine ⟨fun c => Cert.KernelIdeal.ResultArrays.hiddenG m c, fun c => Cert.KernelIdeal.ResultArrays.cellG m c,
    Cert.KernelIdeal.ResultArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v47_eq, Cert.ReferenceIdeal.RefCell.hidden_eq, a0, a1, a2, a3, a4, a5, a6]
  · obtain ⟨a0, a1, a2, a3, a4, a5, a6⟩ := hagree c
    refine (Cert.ReferenceIdeal.Read.val_main_v45_eq (F := Ideal) _ _ _ _ _ _ _).trans ?_
    rw [Cert.ReferenceIdeal.RefCell.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
